-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64x128 .f32) (main_arg12 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg11
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x128 .f32) (main_arg10 : FVec F S128 .f32) (main_arg11 : FVec F S64x128 .f32) (main_arg12 : FVec F S64 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S64x128 .f32) (main_arg12 : FVec F S64 .f32) (main_arg13 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩
abbrev S128x64 : Shape := ⟨2, ![128, 64]⟩

abbrev nBuf : Space → Nat
  | .hbm => 75
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S2x800000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000x1, .f32⟩
  | .hbm, ⟨33, _⟩ => ⟨S_, .f32⟩
  | .hbm, ⟨34, _⟩ => ⟨S50000x1, .f32⟩
  | .hbm, ⟨35, _⟩ => ⟨S800000x1, .i32⟩
  | .hbm, ⟨36, _⟩ => ⟨S50000x1, .f32⟩
  | .hbm, ⟨37, _⟩ => ⟨S_, .f32⟩
  | .hbm, ⟨38, _⟩ => ⟨S50000x1, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000x1, .f32⟩
  | .hbm, ⟨60, _⟩ => ⟨S_, .f32⟩
  | .hbm, ⟨61, _⟩ => ⟨S50000x1, .f32⟩
  | .hbm, ⟨62, _⟩ => ⟨S800000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S1x128, .f32⟩
  | .hbm, ⟨71, _⟩ => ⟨S50000x128, .f32⟩
  | .hbm, ⟨72, _⟩ => ⟨S1x128, .f32⟩
  | .hbm, ⟨73, _⟩ => ⟨S1x64, .f32⟩
  | .hbm, ⟨74, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S64x128, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S64x128 : Shape := ⟨2, ![64, 128]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000 : Shape := ⟨1, ![50000]⟩
abbrev S128x64 : Shape := ⟨2, ![128, 64]⟩
abbrev S50000x64 : Shape := ⟨2, ![50000, 64]⟩
abbrev S1x64 : Shape := ⟨2, ![1, 64]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S2x800000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000x1, .f32⟩
  | .hbm, ⟨33, _⟩ => ⟨S_, .f32⟩
  | .hbm, ⟨34, _⟩ => ⟨S50000x1, .f32⟩
  | .hbm, ⟨35, _⟩ => ⟨S800000x1, .i32⟩
  | .hbm, ⟨36, _⟩ => ⟨S50000x1, .f32⟩
  | .hbm, ⟨37, _⟩ => ⟨S_, .f32⟩
  | .hbm, ⟨38, _⟩ => ⟨S50000x1, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000, .f32⟩
  | .hbm, ⟨56, _⟩ => ⟨S50000x1, .f32⟩
  | .hbm, ⟨57, _⟩ => ⟨S50000x1, .f32⟩
  | .hbm, ⟨58, _⟩ => ⟨S_, .f32⟩
  | .hbm, ⟨59, _⟩ => ⟨S50000x1, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S_, .f32⟩
  | .hbm, ⟨80, _⟩ => ⟨S800000x1, .f32⟩
  | .hbm, ⟨81, _⟩ => ⟨S_, .f32⟩
  | .hbm, ⟨82, _⟩ => ⟨S50000x1, .f32⟩
  | .hbm, ⟨83, _⟩ => ⟨S800000x1, .i32⟩
  | .hbm, ⟨84, _⟩ => ⟨S50000x1, .f32⟩
  | .hbm, ⟨85, _⟩ => ⟨S_, .f32⟩
  | .hbm, ⟨86, _⟩ => ⟨S50000x1, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S128x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S128x128, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000, .f32⟩
  | .hbm, ⟨104, _⟩ => ⟨S50000x1, .f32⟩
  | .hbm, ⟨105, _⟩ => ⟨S50000x1, .f32⟩
  | .hbm, ⟨106, _⟩ => ⟨S_, .f32⟩
  | .hbm, ⟨107, _⟩ => ⟨S50000x1, .f32⟩
  | .hbm, ⟨108, _⟩ => ⟨S50000x1, .f32⟩
  | .hbm, ⟨109, _⟩ => ⟨S50000x128, .f32⟩
  | .hbm, ⟨110, _⟩ => ⟨S50000x128, .f32⟩
  | .hbm, ⟨111, _⟩ => ⟨S_, .f32⟩
  | .hbm, ⟨112, _⟩ => ⟨S50000x128, .f32⟩
  | .hbm, ⟨113, _⟩ => ⟨S50000x128, .f32⟩
  | .hbm, ⟨114, _⟩ => ⟨S128x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S_, .f32⟩
  | .hbm, ⟨120, _⟩ => ⟨S50000x128, .f32⟩
  | .hbm, ⟨121, _⟩ => ⟨S50000x128, .f32⟩
  | .hbm, ⟨122, _⟩ => ⟨S128x64, .f32⟩
  | .hbm, ⟨123, _⟩ => ⟨S50000x64, .f32⟩
  | .hbm, ⟨124, _⟩ => ⟨S1x64, .f32⟩
  | .hbm, ⟨125, _⟩ => ⟨S50000x64, .f32⟩
  | .hbm, ⟨126, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_cst : Ref sig .tc := ⟨.hbm, 63, rfl⟩
abbrev main_call0_v0 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_12 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call1_cst : Ref sig .tc := ⟨.hbm, 111, rfl⟩
abbrev main_call1_v0 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call2_cst : Ref sig .tc := ⟨.hbm, 119, rfl⟩
abbrev main_call2_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Rows.lean ====
/-
  One GraphSAGE layer and the closing two-layer perceptron, ROW BY ROW, on the extended reals.

  Every node's output row depends only on that node's own feature row x and on the row a that the
  neighbourhood mean left for it:
    lin j   = (Σₖ x k · Wl j k) + bl j + (Σₖ a k · Wr j k) + br j          (the two linear maps, biases added in this order)
    layer j = max (lin j / max (√(Σₗ lin l · lin l)) ε) 0                   (the row scaled to unit length, the length floored at ε, then ReLU)
  and the perceptron's row is
    hidden k = max ((Σₗ x l · W1 k l) + b1 k) 0 ,   post j = (Σₖ hidden k · W2 j k) + b2 j .
  All sums are over the 128 feature columns, in the extended reals; the weights enter as W j k (output column j,
  input column k): both programs multiply by the transposed weight matrix.

  Also here, because both programs need them: a matrix product's element as a plain sum over Fin K, and the two layout
  operations that a sum keeping its axis brings (a vector made a column, a column spread over the columns).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx

/-- The floor under a row's length: the single-precision number nearest to 1e-12, as both programs spell it. -/
abbrev floorEps : EReal := Ideal.ofBits .f32 0x2B8CBCCC#32
/-- The single-precision zero word (the extended real 0; never evaluated here: both sides carry the same word). -/
abbrev zeroF : EReal := Ideal.ofBits .f32 0x00000000#32

/-- A matrix of extended reals with n rows and m columns. -/
abbrev Mat (n m : Nat) : Type := (⟨2, ![n, m]⟩ : Shape).Idx → EReal

/-- The two linear maps of a layer at output column j, the biases added in the programs' order. -/
def lin (x a : Fin 128 → EReal) (Wl : Fin 128 → Fin 128 → EReal) (bl : Fin 128 → EReal)
    (Wr : Fin 128 → Fin 128 → EReal) (br : Fin 128 → EReal) (j : Fin 128) : EReal :=
  (∑ k : Fin 128, x k * Wl j k) + bl j + (∑ k : Fin 128, a k * Wr j k) + br j

/-- A layer's output row: lin divided by its Euclidean length (floored at ε), negative entries cut to zero. -/
def layerRow (x a : Fin 128 → EReal) (Wl : Fin 128 → Fin 128 → EReal) (bl : Fin 128 → EReal)
    (Wr : Fin 128 → Fin 128 → EReal) (br : Fin 128 → EReal) (j : Fin 128) : EReal :=
  max (Ideal.div (lin x a Wl bl Wr br j)
    (max (Ideal.sqrt (∑ l : Fin 128, lin x a Wl bl Wr br l * lin x a Wl bl Wr br l)) floorEps)) zeroF

/-- The perceptron's hidden row. -/
def hidden (x : Fin 128 → EReal) (W1 : Fin 128 → Fin 128 → EReal) (b1 : Fin 128 → EReal) (k : Fin 128) : EReal :=
  max ((∑ l : Fin 128, x l * W1 k l) + b1 k) zeroF

/-- The perceptron's output row (64 columns). -/
def postRow (x : Fin 128 → EReal) (W1 : Fin 128 → Fin 128 → EReal) (b1 : Fin 128 → EReal)
    (W2 : Fin 64 → Fin 128 → EReal) (b2 : Fin 64 → EReal) (j : Fin 64) : EReal :=
  (∑ k : Fin 128, hidden x W1 b1 k * W2 j k) + b2 j

/-- A layer on a whole array of n node rows: row (i 0) of the result is layerRow of rows (i 0) of x and a. -/
def layerArr {n : Nat} (x a : Mat n 128) (Wl Wr : Mat 128 128) (bl br : Fin 128 → EReal) : Mat n 128 :=
  fun i => layerRow (fun k => x (ix2 (i 0) k)) (fun k => a (ix2 (i 0) k)) (fun j k => Wl (ix2 j k)) bl
    (fun j k => Wr (ix2 j k)) br (i 1)

/-- The perceptron on a whole array of n node rows. -/
def postArr {n : Nat} (x : Mat n 128) (W1 : Mat 128 128) (b1 : Fin 128 → EReal) (W2 : Mat 64 128) (b2 : Fin 64 → EReal) :
    Mat n 64 :=
  fun i => postRow (fun k => x (ix2 (i 0) k)) (fun j k => W1 (ix2 j k)) b1 (fun j k => W2 (ix2 j k)) b2 (i 1)

/-! ## A matrix product's element as a plain sum -/

/-- For dimension numbers that contract the left operand's columns with the right operand's rows (the four coordinate
    facts l0 … r1 say exactly that), the sum over the contraction index at output (r, c) is Σₖ L (r, k) · R (k, c). -/
theorem dot_rows {n K m : Nat} (D : DotDims ⟨2, ![n, K]⟩ ⟨2, ![K, m]⟩ ⟨2, ![n, m]⟩)
    (hr : D.contr.rank = 1) (hs : D.contr.size ⟨0, by omega⟩ = K)
    (l0 : ∀ (i : (⟨2, ![n, m]⟩ : Shape).Idx) (q : D.contr.Idx), (D.lhsIdx i q (0 : Fin 2)).val = (i (0 : Fin 2)).val)
    (l1 : ∀ (i : (⟨2, ![n, m]⟩ : Shape).Idx) (q : D.contr.Idx), (D.lhsIdx i q (1 : Fin 2)).val = (q ⟨0, by omega⟩).val)
    (r0 : ∀ (i : (⟨2, ![n, m]⟩ : Shape).Idx) (q : D.contr.Idx), (D.rhsIdx i q (0 : Fin 2)).val = (q ⟨0, by omega⟩).val)
    (r1 : ∀ (i : (⟨2, ![n, m]⟩ : Shape).Idx) (q : D.contr.Idx), (D.rhsIdx i q (1 : Fin 2)).val = (i (1 : Fin 2)).val)
    (L : Mat n K) (R : Mat K m) (r : Fin n) (c : Fin m) :
    ∑ q : D.contr.Idx, L (D.lhsIdx (ix2 r c) q) * R (D.rhsIdx (ix2 r c) q) = ∑ k : Fin K, L (ix2 r k) * R (ix2 k c) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact l0 _ _
    | ⟨1, _⟩ => exact (l1 _ _).trans hk)
  have er : D.rhsIdx (ix2 r c) ((contrEquiv1 D K hr hs).symm k) = ix2 k c := funext fun a => Fin.ext (by
    match a with
    | ⟨0, _⟩ => exact (r0 _ _).trans hk
    | ⟨1, _⟩ => exact r1 _ _)
  rw [el, er]

/-! ## The two layout operations of a sum that keeps its axis -/

variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] spread over b columns reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Sage

end
-- ==== Proof.RefValue.lean ====
/-
  The reference program's result as the same function of the arguments.

  The reference computes, for the whole 50000-row arrays at once, what each kernel launch computes block by block: two layers
  (each: two matrix products with transposed weights, biases, the rows scaled to unit length with the length floored, ReLU)
  and the two-layer perceptron; between them the neighbourhood mean agg (gather the source rows along the edges, add them up
  per destination, divide by the floored count), which both programs compute with the same host operations and which is
  kept here as one unopened function of a node array and the edge list. Read one operation at a time at an element
  (the generated read lemmas), every stage is the row function of Rows at row r.
-/
import proofs.«118840_j21311627723482_1_alg».proof.Proof.Rows
import proofs.«118840_j21311627723482_1_alg».proof.Proof.Gen.ReferenceIdeal.Read

noncomputable section

namespace Cert.Sage.Ref

open Idealize.ShloMosaic Idealize.ShloMosaic.ValueIdx Cert.ReferenceIdeal Cert.ReferenceIdeal.Gen Cert.ReferenceIdeal.Read Cert.Sage

/-- Two index functions into a rank-2 shape agree: coordinate by coordinate, by computation. -/
macro "idx2" : tactic => `(tactic| (funext a; apply Fin.ext; match a with | ⟨0, _⟩ => rfl | ⟨1, _⟩ => rfl))
/-- The same into a rank-1 shape. -/
macro "idx1" : tactic => `(tactic| (funext a; apply Fin.ext; match a with | ⟨0, _⟩ => rfl))

/-- The neighbourhood mean of a node array along the edge list: the reference's own stage, never opened. -/
abbrev agg (x : (⟨S50000x128, .f32⟩ : BufTy).Contents (Elt Ideal)) (e : (⟨S2x800000, .i32⟩ : BufTy).Contents (Elt Ideal)) :
    (⟨S50000x128, .f32⟩ : BufTy).Contents (Elt Ideal) :=
  val_main_v21 (F := Ideal) x e

/-! ## Layer 1 of the reference -/

theorem i1_dl (r : Fin 50000) (c k : Fin 128) : lidx_main_v23 (ix2 r c) k = ix2 r k := by idx2
theorem i1_dlw (r : Fin 50000) (c k : Fin 128) : idx_main_v22 (ridx_main_v23 (ix2 r c) k) = ix2 c k := by idx2
theorem i1_dr (r : Fin 50000) (c k : Fin 128) : lidx_main_v28 (ix2 r c) k = ix2 r k := by idx2
theorem i1_drw (r : Fin 50000) (c k : Fin 128) : idx_main_v27 (ridx_main_v28 (ix2 r c) k) = ix2 c k := by idx2
theorem i1_bl (r : Fin 50000) (c : Fin 128) : idx_main_v24 (idx_main_v25 (ix2 r c)) = ix1 c := by idx1
theorem i1_br (r : Fin 50000) (c : Fin 128) : idx_main_v30 (idx_main_v31 (ix2 r c)) = ix1 c := by idx1
theorem i1_nrm (r : Fin 50000) (c k : Fin 128) :
    idx_main_v34 (idx_main_v35 (idx_main_v39 (ix2 r c))) k = ix2 r k := by idx2

/-- The two linear maps of layer 1 at (r, c). -/
theorem lin1 (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x13 : (⟨S2x800000, .i32⟩ : BufTy).Contents (Elt Ideal)) (r : Fin 50000) (c : Fin 128) :
    val_main_v32 (F := Ideal) x0 x1 x2 x3 x4 x13 (ix2 r c)
      = lin (fun k => x0 (ix2 r k)) (fun k => val_main_v21 (F := Ideal) x0 x13 (ix2 r k)) (fun j k => x1 (ix2 j k)) (fun j => x2 (ix1 j))
          (fun j k => x3 (ix2 j k)) (fun j => x4 (ix1 j)) c := by
  simp only [val_main_v32_apply, val_main_v29_apply, val_main_v26_apply, val_main_v23_apply,
    val_main_v28_apply, val_main_v25_apply, val_main_v24_apply, val_main_v31_apply, val_main_v30_apply,
    val_main_v22_apply, val_main_v27_apply, i1_dl, i1_dlw, i1_dr, i1_drw, i1_bl, i1_br]
  rfl

/-- Layer 1 of the reference is the layer function of its node array and its aggregated array. -/
theorem layer1 (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x13 : (⟨S2x800000, .i32⟩ : BufTy).Contents (Elt Ideal)) :
    val_main_v41 (F := Ideal) x0 x1 x2 x3 x4 x13
      = layerArr (x0) (val_main_v21 (F := Ideal) x0 x13) x1 x3 (fun j => x2 (ix1 j)) (fun j => x4 (ix1 j)) := by
  funext i
  obtain ⟨r, c, rfl⟩ : ∃ (r : Fin 50000) (c : Fin 128), i = ix2 r c := ⟨i 0, i 1, eq_ix2 i⟩
  simp only [val_main_v41_apply, val_main_v40_apply, val_main_v39_apply, val_main_v38_apply, val_main_v36_apply,
    val_main_v35_apply, val_main_v34_apply, val_main_v33_apply, val_main_v37_apply, val_main_cst_5_apply,
    val_main_cst_4_apply, val_main_call0_v0_apply, val_main_call0_cst_apply, i1_nrm, lin1]
  simp only [layerArr, layerRow, Ideal.ofBits_def, Ideal.ofBits_zero_f32, zero_add, Ideal.maximumf_def, Ideal.hostDivf_def,
    Ideal.hostUnary_sqrt_def, Ideal.mulf_def]

/-! ## Layer 2 of the reference -/

theorem i2_dl (r : Fin 50000) (c k : Fin 128) : lidx_main_v61 (ix2 r c) k = ix2 r k := by idx2
theorem i2_dlw (r : Fin 50000) (c k : Fin 128) : idx_main_v60 (ridx_main_v61 (ix2 r c) k) = ix2 c k := by idx2
theorem i2_dr (r : Fin 50000) (c k : Fin 128) : lidx_main_v66 (ix2 r c) k = ix2 r k := by idx2
theorem i2_drw (r : Fin 50000) (c k : Fin 128) : idx_main_v65 (ridx_main_v66 (ix2 r c) k) = ix2 c k := by idx2
theorem i2_bl (r : Fin 50000) (c : Fin 128) : idx_main_v62 (idx_main_v63 (ix2 r c)) = ix1 c := by idx1
theorem i2_br (r : Fin 50000) (c : Fin 128) : idx_main_v68 (idx_main_v69 (ix2 r c)) = ix1 c := by idx1
theorem i2_nrm (r : Fin 50000) (c k : Fin 128) :
    idx_main_v72 (idx_main_v73 (idx_main_v77 (ix2 r c))) k = ix2 r k := by idx2

/-- The two linear maps of layer 2 at (r, c). -/
theorem lin2 (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x13 : (⟨S2x800000, .i32⟩ : BufTy).Contents (Elt Ideal)) (r : Fin 50000) (c : Fin 128) :
    val_main_v70 (F := Ideal) x0 x1 x2 x3 x4 x5 x6 x7 x8 x13 (ix2 r c)
      = lin (fun k => val_main_v41 (F := Ideal) x0 x1 x2 x3 x4 x13 (ix2 r k)) (fun k => val_main_v59 (F := Ideal) x0 x1 x2 x3 x4 x13 (ix2 r k)) (fun j k => x5 (ix2 j k)) (fun j => x6 (ix1 j))
          (fun j k => x7 (ix2 j k)) (fun j => x8 (ix1 j)) c := by
  simp only [val_main_v70_apply, val_main_v67_apply, val_main_v64_apply, val_main_v61_apply,
    val_main_v66_apply, val_main_v63_apply, val_main_v62_apply, val_main_v69_apply, val_main_v68_apply,
    val_main_v60_apply, val_main_v65_apply, i2_dl, i2_dlw, i2_dr, i2_drw, i2_bl, i2_br]
  rfl

/-- Layer 2 of the reference is the layer function of its node array and its aggregated array. -/
theorem layer2 (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x13 : (⟨S2x800000, .i32⟩ : BufTy).Contents (Elt Ideal)) :
    val_main_v79 (F := Ideal) x0 x1 x2 x3 x4 x5 x6 x7 x8 x13
      = layerArr (val_main_v41 (F := Ideal) x0 x1 x2 x3 x4 x13) (val_main_v59 (F := Ideal) x0 x1 x2 x3 x4 x13) x5 x7 (fun j => x6 (ix1 j)) (fun j => x8 (ix1 j)) := by
  funext i
  obtain ⟨r, c, rfl⟩ : ∃ (r : Fin 50000) (c : Fin 128), i = ix2 r c := ⟨i 0, i 1, eq_ix2 i⟩
  simp only [val_main_v79_apply, val_main_v78_apply, val_main_v77_apply, val_main_v76_apply, val_main_v74_apply,
    val_main_v73_apply, val_main_v72_apply, val_main_v71_apply, val_main_v75_apply, val_main_cst_13_apply,
    val_main_cst_12_apply, val_main_call1_v0_apply, val_main_call1_cst_apply, i2_nrm, lin2]
  simp only [layerArr, layerRow, Ideal.ofBits_def, Ideal.ofBits_zero_f32, zero_add, Ideal.maximumf_def, Ideal.hostDivf_def,
    Ideal.hostUnary_sqrt_def, Ideal.mulf_def]

/-! ## The perceptron of the reference -/

theorem i3_d1 (r : Fin 50000) (c k : Fin 128) : lidx_main_v81 (ix2 r c) k = ix2 r k := by idx2
theorem i3_d1w (r : Fin 50000) (c k : Fin 128) : idx_main_v80 (ridx_main_v81 (ix2 r c) k) = ix2 c k := by idx2
theorem i3_b1 (r : Fin 50000) (c : Fin 128) : idx_main_v82 (idx_main_v83 (ix2 r c)) = ix1 c := by idx1
theorem i3_d2 (r : Fin 50000) (c : Fin 64) (k : Fin 128) : lidx_main_v87 (ix2 r c) k = ix2 r k := by idx2
theorem i3_d2w (r : Fin 50000) (c : Fin 64) (k : Fin 128) : idx_main_v86 (ridx_main_v87 (ix2 r c) k) = ix2 c k := by idx2
theorem i3_b2 (r : Fin 50000) (c : Fin 64) : idx_main_v88 (idx_main_v89 (ix2 r c)) = ix1 c := by idx1

/-- The reference's last stage is the perceptron function of the second layer's output. -/
theorem post3 (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S64x128, .f32⟩ : BufTy).Contents (Elt Ideal)) (x12 : (⟨S64, .f32⟩ : BufTy).Contents (Elt Ideal)) (x13 : (⟨S2x800000, .i32⟩ : BufTy).Contents (Elt Ideal)) :
    val_main_v90 (F := Ideal) x0 x1 x2 x3 x4 x5 x6 x7 x8 x9 x10 x11 x12 x13
      = postArr (val_main_v79 (F := Ideal) x0 x1 x2 x3 x4 x5 x6 x7 x8 x13) x9 (fun j => x10 (ix1 j)) x11 (fun j => x12 (ix1 j)) := by
  funext i
  obtain ⟨r, c, rfl⟩ : ∃ (r : Fin 50000) (c : Fin 64), i = ix2 r c := ⟨i 0, i 1, eq_ix2 i⟩
  simp only [val_main_v90_apply, val_main_v87_apply, val_main_v89_apply, val_main_v88_apply, val_main_v86_apply, val_main_v85_apply,
    val_main_v84_apply, val_main_v83_apply, val_main_v82_apply, val_main_v81_apply, val_main_v80_apply, val_main_call2_v0_apply,
    val_main_call2_cst_apply, i3_d1, i3_d1w, i3_b1, i3_d2, i3_d2w, i3_b2]
  rfl

/-! ## The whole reference -/

/-- The second layer's aggregated array is the neighbourhood mean of the first layer's output: the same host operations,
    applied to another array. -/
theorem agg2 (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x13 : (⟨S2x800000, .i32⟩ : BufTy).Contents (Elt Ideal)) :
    val_main_v59 (F := Ideal) x0 x1 x2 x3 x4 x13 = agg (val_main_v41 (F := Ideal) x0 x1 x2 x3 x4 x13) x13 := rfl

/-- THE FUNCTION both programs compute: two layers, each on the node array and its neighbourhood mean, then the perceptron. -/
def sage (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S64x128, .f32⟩ : BufTy).Contents (Elt Ideal)) (x12 : (⟨S64, .f32⟩ : BufTy).Contents (Elt Ideal)) (x13 : (⟨S2x800000, .i32⟩ : BufTy).Contents (Elt Ideal)) : Mat 50000 64 :=
  let h1 : Mat 50000 128 := layerArr x0 (agg x0 x13) x1 x3 (fun j => x2 (ix1 j)) (fun j => x4 (ix1 j))
  let h2 : Mat 50000 128 := layerArr h1 (agg h1 x13) x5 x7 (fun j => x6 (ix1 j)) (fun j => x8 (ix1 j))
  postArr h2 x9 (fun j => x10 (ix1 j)) x11 (fun j => x12 (ix1 j))

/-- The reference's result is that function of its arguments. -/
theorem ref_eq (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S64x128, .f32⟩ : BufTy).Contents (Elt Ideal)) (x12 : (⟨S64, .f32⟩ : BufTy).Contents (Elt Ideal)) (x13 : (⟨S2x800000, .i32⟩ : BufTy).Contents (Elt Ideal)) :
    val_main_v90 (F := Ideal) x0 x1 x2 x3 x4 x5 x6 x7 x8 x9 x10 x11 x12 x13 = sage x0 x1 x2 x3 x4 x5 x6 x7 x8 x9 x10 x11 x12 x13 := by
  rw [post3, layer2, agg2, layer1]
  rfl

end Cert.Sage.Ref

end
-- ==== Proof.KernelBody.lean ====
/-
  The three kernel bodies' arithmetic, read at one element.

  Each body loads whole blocks (5000 node rows; the weights and biases whole), computes, and stores one block. Read on the
  extended reals, where narrowing a float format is the identity and a matrix unit's product into a zero accumulator is
  a plain sum, the element (p, q) of what a layer body stores is the layer's row function (Rows) of row p of its two
  5000-row operands, and the element (p, q) of what the perceptron body stores is the perceptron's row function of row
  p of its operand. The weight blocks are used transposed, so the product at column q sums x (p, k) · W (q, k); a bias
  block has the one row 0.
-/
import proofs.«118840_j21311627723482_1_alg».proof.Proof.Rows
import proofs.«118840_j21311627723482_1_alg».proof.Proof.Gen.KernelIdeal.Skeleton

noncomputable section

namespace Cert.Sage.Body

open Idealize.ShloMosaic Idealize.ShloMosaic.ValueIdx Cert.KernelIdeal Cert.KernelIdeal.Gen Cert.Sage

/-! ## The two matrix products' dimension numbers: left columns against right rows -/

theorem d128_l0 (i : S5000x128.Idx) (q : dot_S5000x128_S128x128_S5000x128_1_0_0_1_n_n.contr.Idx) :
    (dot_S5000x128_S128x128_S5000x128_1_0_0_1_n_n.lhsIdx i q (0 : Fin 2)).val = (i (0 : Fin 2)).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem d128_l1 (i : S5000x128.Idx) (q : dot_S5000x128_S128x128_S5000x128_1_0_0_1_n_n.contr.Idx) :
    (dot_S5000x128_S128x128_S5000x128_1_0_0_1_n_n.lhsIdx i q (1 : Fin 2)).val = (q ⟨0, by decide⟩).val :=
  dot_S5000x128_S128x128_S5000x128_1_0_0_1_n_n.lhsIdx_val_of_single rfl i q
theorem d128_r0 (i : S5000x128.Idx) (q : dot_S5000x128_S128x128_S5000x128_1_0_0_1_n_n.contr.Idx) :
    (dot_S5000x128_S128x128_S5000x128_1_0_0_1_n_n.rhsIdx i q (0 : Fin 2)).val = (q ⟨0, by decide⟩).val :=
  dot_S5000x128_S128x128_S5000x128_1_0_0_1_n_n.rhsIdx_val_of_single rfl i q
theorem d128_r1 (i : S5000x128.Idx) (q : dot_S5000x128_S128x128_S5000x128_1_0_0_1_n_n.contr.Idx) :
    (dot_S5000x128_S128x128_S5000x128_1_0_0_1_n_n.rhsIdx i q (1 : Fin 2)).val = (i (1 : Fin 2)).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem d64_l0 (i : S5000x64.Idx) (q : dot_S5000x128_S128x64_S5000x64_1_0_0_1_n_n.contr.Idx) :
    (dot_S5000x128_S128x64_S5000x64_1_0_0_1_n_n.lhsIdx i q (0 : Fin 2)).val = (i (0 : Fin 2)).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem d64_l1 (i : S5000x64.Idx) (q : dot_S5000x128_S128x64_S5000x64_1_0_0_1_n_n.contr.Idx) :
    (dot_S5000x128_S128x64_S5000x64_1_0_0_1_n_n.lhsIdx i q (1 : Fin 2)).val = (q ⟨0, by decide⟩).val :=
  dot_S5000x128_S128x64_S5000x64_1_0_0_1_n_n.lhsIdx_val_of_single rfl i q
theorem d64_r0 (i : S5000x64.Idx) (q : dot_S5000x128_S128x64_S5000x64_1_0_0_1_n_n.contr.Idx) :
    (dot_S5000x128_S128x64_S5000x64_1_0_0_1_n_n.rhsIdx i q (0 : Fin 2)).val = (q ⟨0, by decide⟩).val :=
  dot_S5000x128_S128x64_S5000x64_1_0_0_1_n_n.rhsIdx_val_of_single rfl i q
theorem d64_r1 (i : S5000x64.Idx) (q : dot_S5000x128_S128x64_S5000x64_1_0_0_1_n_n.contr.Idx) :
    (dot_S5000x128_S128x64_S5000x64_1_0_0_1_n_n.rhsIdx i q (1 : Fin 2)).val = (i (1 : Fin 2)).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## The pieces of a body, each at an element -/

/-- A block times a transposed 128 × 128 weight block, into the zero accumulator: Σₖ x (p, k) · w (q, k). -/
theorem matmulT_at (x : FVec Ideal S5000x128 .bf16) (w : Vec Ideal S128x128 .f32) (p : Fin 5000) (q : Fin 128) :
    matmul dot_S5000x128_S128x128_S5000x128_1_0_0_1_n_n none x
        (transpose S128x128 [1, 0] (truncf .bf16 w bitsLt_bf16_f32) transposes_S128x128_p1_0_S128x128)
        (constant S5000x128 .f32 0x00000000#32) (ix2 p q)
      = ∑ k : Fin 128, x (ix2 p k) * w (ix2 q k) := by
  simp only [matmul]
  rw [Ideal.matmul_constant_zero_apply]
  refine (dot_rows dot_S5000x128_S128x128_S5000x128_1_0_0_1_n_n rfl rfl d128_l0 d128_l1 d128_r0 d128_r1 _ _ p q).trans ?_
  refine Finset.sum_congr rfl fun k _ => ?_
  rw [transpose_ix2_apply]
  rfl

/-- The same for the 64 × 128 weight block of the perceptron's second map. -/
theorem matmulT64_at (x : FVec Ideal S5000x128 .bf16) (w : Vec Ideal S64x128 .f32) (p : Fin 5000) (q : Fin 64) :
    matmul dot_S5000x128_S128x64_S5000x64_1_0_0_1_n_n none x
        (transpose S128x64 [1, 0] (truncf .bf16 w bitsLt_bf16_f32) transposes_S64x128_p1_0_S128x64)
        (constant S5000x64 .f32 0x00000000#32) (ix2 p q)
      = ∑ k : Fin 128, x (ix2 p k) * w (ix2 q k) := by
  simp only [matmul]
  rw [Ideal.matmul_constant_zero_apply]
  refine (dot_rows dot_S5000x128_S128x64_S5000x64_1_0_0_1_n_n rfl rfl d64_l0 d64_l1 d64_r0 d64_r1 _ _ p q).trans ?_
  refine Finset.sum_congr rfl fun k _ => ?_
  rw [transpose_ix2_apply]
  rfl

/-- A bias block's one row, spread over the 5000 rows. -/
theorem bias_at (b : FVec Ideal S1x128 .f32) (p : Fin 5000) (q : Fin 128) :
    broadcastTo S5000x128 b broadcasts_S1x128_S5000x128 (ix2 p q) = b (ix2 (0 : Fin 1) q) :=
  broadcastTo_1b_ab_apply b _ p q

theorem bias64_at (b : FVec Ideal S1x64 .f32) (p : Fin 5000) (q : Fin 64) :
    broadcastTo S5000x64 b broadcasts_S1x64_S5000x64 (ix2 p q) = b (ix2 (0 : Fin 1) q) :=
  broadcastTo_1b_ab_apply b _ p q

/-- A row's length, floored: the row's sum of v over the 128 columns, kept as a column, rooted, floored at ε, and
    spread back over the columns. -/
theorem norm_at (v : FVec Ideal S5000x128 .f32) (p : Fin 5000) (q : Fin 128) :
    broadcastTo S5000x128
        (maximumf (sqrt (shapeCast S5000x1 (multiReduction .add [1] S5000 v 0x00000000#32 reduces_S5000x128_S5000 (.inl rfl) rfl)
          shapeCasts_S5000_S5000x1)) (broadcast S5000x1 (Scalar.ofBits .f32 0x2B8CBCCC#32)))
        broadcasts_S5000x1_S5000x128 (ix2 p q)
      = max (Ideal.sqrt (∑ l : Fin 128, v (ix2 p l))) floorEps := by
  rw [broadcastTo_a1_ab_apply]
  show max (Ideal.sqrt (shapeCast S5000x1 (multiReduction .add [1] S5000 v 0x00000000#32 reduces_S5000x128_S5000 (.inl rfl) rfl)
      shapeCasts_S5000_S5000x1 (ix2 p (0 : Fin 1)))) floorEps = _
  rw [shapeCast_a_a1_apply]
  refine congrArg (fun s => max (Ideal.sqrt s) floorEps) ?_
  refine (Ideal.multiReduction_add_single v 0x00000000#32 reduces_S5000x128_S5000 (.inl rfl) rfl (ix1 p)).trans ?_
  exact Finset.sum_congr rfl fun l _ => congrArg v (funext fun a => Fin.ext (by
    match a with
    | ⟨0, _⟩ => rfl
    | ⟨1, _⟩ => rfl))

/-! ## The three payloads -/

/-- The first layer's body stores, at (p, q), the layer's row function of row p of its two operands. -/
theorem pay0_at (x0 x1 : Vec Ideal S5000x128 .f32) (w2 w4 : Vec Ideal S128x128 .f32) (b3 b5 : Vec Ideal S1x128 .f32)
    (p : Fin 5000) (q : Fin 128) :
    k0_pay1 (F := Ideal) x0 x1 w2 w4 b3 b5 (ix2 p q)
      = layerRow (fun k => x0 (ix2 p k)) (fun k => x1 (ix2 p k)) (fun j k => w2 (ix2 j k)) (fun j => b3 (ix2 (0 : Fin 1) j))
          (fun j k => w4 (ix2 j k)) (fun j => b5 (ix2 (0 : Fin 1) j)) q := by
  unfold k0_pay1
  simp only [shapeCast_self]
  rw [maximumf_apply, divf_apply, norm_at]
  unfold layerRow
  refine congrArg₂ max (congrArg₂ Ideal.div ?_ (congrArg₂ max (congrArg Ideal.sqrt (Finset.sum_congr rfl fun l _ => ?_)) rfl)) rfl
  · rw [addf_apply, addf_apply, addf_apply, matmulT_at, matmulT_at, bias_at, bias_at]
    rfl
  · rw [mulf_apply, addf_apply, addf_apply, addf_apply, matmulT_at, matmulT_at, bias_at, bias_at]
    rfl

/-- The second layer's body: the same arithmetic. -/
theorem pay1_at (x0 x1 : Vec Ideal S5000x128 .f32) (w2 w4 : Vec Ideal S128x128 .f32) (b3 b5 : Vec Ideal S1x128 .f32)
    (p : Fin 5000) (q : Fin 128) :
    k1_pay1 (F := Ideal) x0 x1 w2 w4 b3 b5 (ix2 p q)
      = layerRow (fun k => x0 (ix2 p k)) (fun k => x1 (ix2 p k)) (fun j k => w2 (ix2 j k)) (fun j => b3 (ix2 (0 : Fin 1) j))
          (fun j k => w4 (ix2 j k)) (fun j => b5 (ix2 (0 : Fin 1) j)) q := by
  unfold k1_pay1
  simp only [shapeCast_self]
  rw [maximumf_apply, divf_apply, norm_at]
  unfold layerRow
  refine congrArg₂ max (congrArg₂ Ideal.div ?_ (congrArg₂ max (congrArg Ideal.sqrt (Finset.sum_congr rfl fun l _ => ?_)) rfl)) rfl
  · rw [addf_apply, addf_apply, addf_apply, matmulT_at, matmulT_at, bias_at, bias_at]
    rfl
  · rw [mulf_apply, addf_apply, addf_apply, addf_apply, matmulT_at, matmulT_at, bias_at, bias_at]
    rfl

/-- The perceptron's body stores, at (p, q), the perceptron's row function of row p of its operand. -/
theorem pay2_at (x0 : Vec Ideal S5000x128 .f32) (w1 : Vec Ideal S128x128 .f32) (b2 : Vec Ideal S1x128 .f32)
    (w3 : Vec Ideal S64x128 .f32) (b4 : Vec Ideal S1x64 .f32) (p : Fin 5000) (q : Fin 64) :
    k2_pay1 (F := Ideal) x0 w1 b2 w3 b4 (ix2 p q)
      = postRow (fun k => x0 (ix2 p k)) (fun j k => w1 (ix2 j k)) (fun j => b2 (ix2 (0 : Fin 1) j))
          (fun j k => w3 (ix2 j k)) (fun j => b4 (ix2 (0 : Fin 1) j)) q := by
  unfold k2_pay1
  simp only [shapeCast_self]
  rw [addf_apply, matmulT64_at, bias64_at]
  unfold postRow
  refine congrArg₂ (· + ·) (Finset.sum_congr rfl fun k _ => congrArg₂ (· * ·) ?_ rfl) rfl
  rw [truncf_apply, maximumf_apply, addf_apply, matmulT_at, bias_at]
  rfl

end Cert.Sage.Body

end
-- ==== Proof.KernelRegions.lean ====
/-
  What each of the three kernel launches leaves in its result array, as ONE function of the arrays it finds.

  A launch runs its body at ten grid points; point t reads rows 5000 t … 5000 t + 4999 of its row operands (the weights and
  biases whole) and writes back rows 5000 t … 5000 t + 4999 of the result. The body's stored block is, element by element,
  the row function of the block's rows (KernelBody), and row p of block t is row 5000 t + p of the array, so what point t
  writes back is block t of the whole-array function; the ten blocks tile the 50000 rows, so the array ends holding that
  function. Stated for any contents V of the buffers at the launch's entry.
-/
import proofs.«118840_j21311627723482_1_alg».proof.Proof.KernelBody
import proofs.«118840_j21311627723482_1_alg».proof.Proof.KernelIdealFrameP
import proofs.«118840_j21311627723482_1_alg».proof.Proof.Gen.KernelIdeal.Points
import Idealize.ShloMosaic.Lib.Pipeline.Value

set_option maxRecDepth 16384

noncomputable section

namespace Cert.Sage.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Sage

variable (V : (c : Dev nD) → (b : Ref sig .tc) → Buf (Elt Ideal) ((c : Thread nD τ).loc b))

/-- Every body access starts at the block's corner. -/
theorem hz : (![0, 0] : Fin 2 → Nat) = fun _ => 0 := funext fun a => by fin_cases a <;> rfl

/-! ## Region 0: a layer over ten blocks of 5000 node rows -/

/-- Region 0's index maps over its ten grid points: the two row operands and the result move with the point, block
    row t; the weights and biases are whole (block 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is block t of the layer function of the arrays as the region finds them: row p of the
    block is row 5000 t + p of the arrays. -/
theorem flushed0 (c : Dev nD) (t : Fin cfg0.N) :
    (dat0 V c).flushed 6 t = ((cfg0.win 6).blk t).view.read (Elt Ideal)
      (layerArr (V c main_arg0 : S50000x128.Idx → EReal) (V c main_v21 : S50000x128.Idx → EReal)
        (V c main_arg1 : S128x128.Idx → EReal) (V c main_arg3 : S128x128.Idx → EReal)
        (fun j => (V c main_v22 : S1x128.Idx → EReal) (ix2 (0 : Fin 1) j))
        (fun j => (V c main_v23 : S1x128.Idx → EReal) (ix2 (0 : Fin 1) j))) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx0 t
  have ht : t.val < 10 := by
    have h : t.val < grid0.N := t.isLt
    rw [N_0] at h
    exact h
  refine funext fun (y : S5000x128.Idx) => ?_
  obtain ⟨p, q, rfl⟩ : ∃ (p : Fin 5000) (q : Fin 128), y = ix2 p q := ⟨y 0, y 1, eq_ix2 y⟩
  refine (Body.pay0_at (iblk0 V c 0 t) (iblk0 V c 1 t) (iblk0 V c 2 t) (iblk0 V c 4 t) (iblk0 V c 3 t)
    (iblk0 V c 5 t) p q).trans ?_
  have hp : p.val < 5000 := p.isLt
  have hx : ∀ k : Fin 128, iblk0 V c 0 t (ix2 p k)
      = (V c main_arg0 : S50000x128.Idx → EReal) (ix2 (⟨t.val * 5000 + p.val, by omega⟩ : Fin 50000) k) := by
    intro k
    show (V c main_arg0 : S50000x128.Idx → EReal) (((cfg0.win 0).blk t).view.emb (ix2 p k)) = _
    refine congrArg (V c main_arg0 : S50000x128.Idx → EReal) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have ha : ∀ k : Fin 128, iblk0 V c 1 t (ix2 p k)
      = (V c main_v21 : S50000x128.Idx → EReal) (ix2 (⟨t.val * 5000 + p.val, by omega⟩ : Fin 50000) k) := by
    intro k
    show (V c main_v21 : S50000x128.Idx → EReal) (((cfg0.win 1).blk t).view.emb (ix2 p k)) = _
    refine congrArg (V c main_v21 : S50000x128.Idx → EReal) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  have hw2 : ∀ j k : Fin 128, iblk0 V c 2 t (ix2 j k) = (V c main_arg1 : S128x128.Idx → EReal) (ix2 j k) := by
    intro j k
    show (V c main_arg1 : S128x128.Idx → EReal) (((cfg0.win 2).blk t).view.emb (ix2 j k)) = _
    refine congrArg (V c main_arg1 : S128x128.Idx → EReal) (funext fun a => Fin.ext ?_)
    match a with
    | ⟨0, _⟩ => show win0_2.index t (0 : Fin 2) * 128 + 1 * j.val = j.val; omega
    | ⟨1, _⟩ => show win0_2.index t (1 : Fin 2) * 128 + 1 * k.val = k.val; omega
  have hw4 : ∀ j k : Fin 128, iblk0 V c 4 t (ix2 j k) = (V c main_arg3 : S128x128.Idx → EReal) (ix2 j k) := by
    intro j k
    show (V c main_arg3 : S128x128.Idx → EReal) (((cfg0.win 4).blk t).view.emb (ix2 j k)) = _
    refine congrArg (V c main_arg3 : S128x128.Idx → EReal) (funext fun a => Fin.ext ?_)
    match a with
    | ⟨0, _⟩ => show win0_4.index t (0 : Fin 2) * 128 + 1 * j.val = j.val; omega
    | ⟨1, _⟩ => show win0_4.index t (1 : Fin 2) * 128 + 1 * k.val = k.val; omega
  have hb3 : ∀ j : Fin 128, iblk0 V c 3 t (ix2 (0 : Fin 1) j) = (V c main_v22 : S1x128.Idx → EReal) (ix2 (0 : Fin 1) j) := by
    intro j
    show (V c main_v22 : S1x128.Idx → EReal) (((cfg0.win 3).blk t).view.emb (ix2 (0 : Fin 1) j)) = _
    refine congrArg (V c main_v22 : S1x128.Idx → EReal) (funext fun a => Fin.ext ?_)
    match a with
    | ⟨0, _⟩ => show win0_3.index t (0 : Fin 2) * 1 + 1 * 0 = 0; omega
    | ⟨1, _⟩ => show win0_3.index t (1 : Fin 2) * 128 + 1 * j.val = j.val; omega
  have hb5 : ∀ j : Fin 128, iblk0 V c 5 t (ix2 (0 : Fin 1) j) = (V c main_v23 : S1x128.Idx → EReal) (ix2 (0 : Fin 1) j) := by
    intro j
    show (V c main_v23 : S1x128.Idx → EReal) (((cfg0.win 5).blk t).view.emb (ix2 (0 : Fin 1) j)) = _
    refine congrArg (V c main_v23 : S1x128.Idx → EReal) (funext fun a => Fin.ext ?_)
    match a with
    | ⟨0, _⟩ => show win0_5.index t (0 : Fin 2) * 1 + 1 * 0 = 0; omega
    | ⟨1, _⟩ => show win0_5.index t (1 : Fin 2) * 128 + 1 * j.val = j.val; omega
  have hout : ((cfg0.win 6).blk t).view.emb (ix2 p q) = ix2 (⟨t.val * 5000 + p.val, by omega⟩ : Fin 50000) q := by
    refine funext fun a => Fin.ext ?_
    match a with
    | ⟨0, _⟩ => show win0_6.index t (0 : Fin 2) * 5000 + 1 * p.val = t.val * 5000 + p.val; omega
    | ⟨1, _⟩ => show win0_6.index t (1 : Fin 2) * 128 + 1 * q.val = q.val; omega
  show layerRow _ _ _ _ _ _ q = layerArr _ _ _ _ _ _ (((cfg0.win 6).blk t).view.emb (ix2 p q))
  rw [hout]
  show layerRow _ _ _ _ _ _ q = layerRow _ _ _ _ _ _ q
  simp only [hx, ha, hw2, hw4, hb3, hb5]

/-- An index of the result array is in point t's block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- The ten blocks tile the result array: row r is in the block of point r / 5000. -/
theorem cover0 (i : S50000x128.Idx) :
    ∃ t : Fin cfg0.N, (cfg0.win 6).flush t = true ∧ i ∈ ((cfg0.win 6).blk t).view.set := by
  have h0 : (i 0).val < 50000 := (i 0).isLt
  have h1 : (i 1).val < 128 := (i 1).isLt
  have hN : (i 0).val / 5000 < cfg0.N := by
    show (i 0).val / 5000 < grid0.N
    rw [N_0]
    omega
  refine ⟨⟨(i 0).val / 5000, hN⟩, flush0_6 _, ?_⟩
  rw [mem_blk0]
  obtain ⟨-, -, -, -, -, -, -, -, -, -, -, -, e60, e61⟩ := idx0 ⟨(i 0).val / 5000, hN⟩
  have e60' : win0_6.index ⟨(i 0).val / 5000, hN⟩ (0 : Fin 2) = (i 0).val / 5000 := e60
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    omega
  | ⟨1, _⟩ =>
    show win0_6.index ⟨(i 0).val / 5000, hN⟩ (1 : Fin 2) * 128 ≤ (i 1).val
      ∧ (i 1).val < win0_6.index ⟨(i 0).val / 5000, hN⟩ (1 : Fin 2) * 128 + 128
    omega

/-- THE RESULT ARRAY of region 0: the layer function of the arrays as the region finds them. -/
theorem arr0 (c : Dev nD) :
    (dat0 V c).arrAt 6 cfg0.N
      = layerArr (V c main_arg0 : S50000x128.Idx → EReal) (V c main_v21 : S50000x128.Idx → EReal)
        (V c main_arg1 : S128x128.Idx → EReal) (V c main_arg3 : S128x128.Idx → EReal)
        (fun j => (V c main_v22 : S1x128.Idx → EReal) (ix2 (0 : Fin 1) j))
        (fun j => (V c main_v23 : S1x128.Idx → EReal) (ix2 (0 : Fin 1) j)) :=
  (dat0 V c).arrAt_eq_of_cover 6 _ (fun t _ => flushed0 V c t) cover0

/-! ## Region 1: a layer over ten blocks of 5000 node rows -/

/-- Region 1's index maps over its ten grid points: the two row operands and the result move with the point, block
    row t; the weights and biases are whole (block 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is block t of the layer function of the arrays as the region finds them: row p of the
    block is row 5000 t + p of the arrays. -/
theorem flushed1 (c : Dev nD) (t : Fin cfg1.N) :
    (dat1 V c).flushed 6 t = ((cfg1.win 6).blk t).view.read (Elt Ideal)
      (layerArr (V c main_v24 : S50000x128.Idx → EReal) (V c main_v42 : S50000x128.Idx → EReal)
        (V c main_arg5 : S128x128.Idx → EReal) (V c main_arg7 : S128x128.Idx → EReal)
        (fun j => (V c main_v43 : S1x128.Idx → EReal) (ix2 (0 : Fin 1) j))
        (fun j => (V c main_v44 : S1x128.Idx → EReal) (ix2 (0 : Fin 1) j))) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx1 t
  have ht : t.val < 10 := by
    have h : t.val < grid1.N := t.isLt
    rw [N_1] at h
    exact h
  refine funext fun (y : S5000x128.Idx) => ?_
  obtain ⟨p, q, rfl⟩ : ∃ (p : Fin 5000) (q : Fin 128), y = ix2 p q := ⟨y 0, y 1, eq_ix2 y⟩
  refine (Body.pay1_at (iblk1 V c 0 t) (iblk1 V c 1 t) (iblk1 V c 2 t) (iblk1 V c 4 t) (iblk1 V c 3 t)
    (iblk1 V c 5 t) p q).trans ?_
  have hp : p.val < 5000 := p.isLt
  have hx : ∀ k : Fin 128, iblk1 V c 0 t (ix2 p k)
      = (V c main_v24 : S50000x128.Idx → EReal) (ix2 (⟨t.val * 5000 + p.val, by omega⟩ : Fin 50000) k) := by
    intro k
    show (V c main_v24 : S50000x128.Idx → EReal) (((cfg1.win 0).blk t).view.emb (ix2 p k)) = _
    refine congrArg (V c main_v24 : S50000x128.Idx → EReal) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have ha : ∀ k : Fin 128, iblk1 V c 1 t (ix2 p k)
      = (V c main_v42 : S50000x128.Idx → EReal) (ix2 (⟨t.val * 5000 + p.val, by omega⟩ : Fin 50000) k) := by
    intro k
    show (V c main_v42 : S50000x128.Idx → EReal) (((cfg1.win 1).blk t).view.emb (ix2 p k)) = _
    refine congrArg (V c main_v42 : S50000x128.Idx → EReal) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  have hw2 : ∀ j k : Fin 128, iblk1 V c 2 t (ix2 j k) = (V c main_arg5 : S128x128.Idx → EReal) (ix2 j k) := by
    intro j k
    show (V c main_arg5 : S128x128.Idx → EReal) (((cfg1.win 2).blk t).view.emb (ix2 j k)) = _
    refine congrArg (V c main_arg5 : S128x128.Idx → EReal) (funext fun a => Fin.ext ?_)
    match a with
    | ⟨0, _⟩ => show win1_2.index t (0 : Fin 2) * 128 + 1 * j.val = j.val; omega
    | ⟨1, _⟩ => show win1_2.index t (1 : Fin 2) * 128 + 1 * k.val = k.val; omega
  have hw4 : ∀ j k : Fin 128, iblk1 V c 4 t (ix2 j k) = (V c main_arg7 : S128x128.Idx → EReal) (ix2 j k) := by
    intro j k
    show (V c main_arg7 : S128x128.Idx → EReal) (((cfg1.win 4).blk t).view.emb (ix2 j k)) = _
    refine congrArg (V c main_arg7 : S128x128.Idx → EReal) (funext fun a => Fin.ext ?_)
    match a with
    | ⟨0, _⟩ => show win1_4.index t (0 : Fin 2) * 128 + 1 * j.val = j.val; omega
    | ⟨1, _⟩ => show win1_4.index t (1 : Fin 2) * 128 + 1 * k.val = k.val; omega
  have hb3 : ∀ j : Fin 128, iblk1 V c 3 t (ix2 (0 : Fin 1) j) = (V c main_v43 : S1x128.Idx → EReal) (ix2 (0 : Fin 1) j) := by
    intro j
    show (V c main_v43 : S1x128.Idx → EReal) (((cfg1.win 3).blk t).view.emb (ix2 (0 : Fin 1) j)) = _
    refine congrArg (V c main_v43 : S1x128.Idx → EReal) (funext fun a => Fin.ext ?_)
    match a with
    | ⟨0, _⟩ => show win1_3.index t (0 : Fin 2) * 1 + 1 * 0 = 0; omega
    | ⟨1, _⟩ => show win1_3.index t (1 : Fin 2) * 128 + 1 * j.val = j.val; omega
  have hb5 : ∀ j : Fin 128, iblk1 V c 5 t (ix2 (0 : Fin 1) j) = (V c main_v44 : S1x128.Idx → EReal) (ix2 (0 : Fin 1) j) := by
    intro j
    show (V c main_v44 : S1x128.Idx → EReal) (((cfg1.win 5).blk t).view.emb (ix2 (0 : Fin 1) j)) = _
    refine congrArg (V c main_v44 : S1x128.Idx → EReal) (funext fun a => Fin.ext ?_)
    match a with
    | ⟨0, _⟩ => show win1_5.index t (0 : Fin 2) * 1 + 1 * 0 = 0; omega
    | ⟨1, _⟩ => show win1_5.index t (1 : Fin 2) * 128 + 1 * j.val = j.val; omega
  have hout : ((cfg1.win 6).blk t).view.emb (ix2 p q) = ix2 (⟨t.val * 5000 + p.val, by omega⟩ : Fin 50000) q := by
    refine funext fun a => Fin.ext ?_
    match a with
    | ⟨0, _⟩ => show win1_6.index t (0 : Fin 2) * 5000 + 1 * p.val = t.val * 5000 + p.val; omega
    | ⟨1, _⟩ => show win1_6.index t (1 : Fin 2) * 128 + 1 * q.val = q.val; omega
  show layerRow _ _ _ _ _ _ q = layerArr _ _ _ _ _ _ (((cfg1.win 6).blk t).view.emb (ix2 p q))
  rw [hout]
  show layerRow _ _ _ _ _ _ q = layerRow _ _ _ _ _ _ q
  simp only [hx, ha, hw2, hw4, hb3, hb5]

/-- An index of the result array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v45).slice (win1_6.rect t)).set ↔ _
  rw [View.set_slice_whole, Rect.mem_set_unit]
  exact Iff.rfl

/-- The ten blocks tile the result array: row r is in the block of point r / 5000. -/
theorem cover1 (i : S50000x128.Idx) :
    ∃ t : Fin cfg1.N, (cfg1.win 6).flush t = true ∧ i ∈ ((cfg1.win 6).blk t).view.set := by
  have h0 : (i 0).val < 50000 := (i 0).isLt
  have h1 : (i 1).val < 128 := (i 1).isLt
  have hN : (i 0).val / 5000 < cfg1.N := by
    show (i 0).val / 5000 < grid1.N
    rw [N_1]
    omega
  refine ⟨⟨(i 0).val / 5000, hN⟩, flush1_6 _, ?_⟩
  rw [mem_blk1]
  obtain ⟨-, -, -, -, -, -, -, -, -, -, -, -, e60, e61⟩ := idx1 ⟨(i 0).val / 5000, hN⟩
  have e60' : win1_6.index ⟨(i 0).val / 5000, hN⟩ (0 : Fin 2) = (i 0).val / 5000 := e60
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    omega
  | ⟨1, _⟩ =>
    show win1_6.index ⟨(i 0).val / 5000, hN⟩ (1 : Fin 2) * 128 ≤ (i 1).val
      ∧ (i 1).val < win1_6.index ⟨(i 0).val / 5000, hN⟩ (1 : Fin 2) * 128 + 128
    omega

/-- THE RESULT ARRAY of region 1: the layer function of the arrays as the region finds them. -/
theorem arr1 (c : Dev nD) :
    (dat1 V c).arrAt 6 cfg1.N
      = layerArr (V c main_v24 : S50000x128.Idx → EReal) (V c main_v42 : S50000x128.Idx → EReal)
        (V c main_arg5 : S128x128.Idx → EReal) (V c main_arg7 : S128x128.Idx → EReal)
        (fun j => (V c main_v43 : S1x128.Idx → EReal) (ix2 (0 : Fin 1) j))
        (fun j => (V c main_v44 : S1x128.Idx → EReal) (ix2 (0 : Fin 1) j)) :=
  (dat1 V c).arrAt_eq_of_cover 6 _ (fun t _ => flushed1 V c t) cover1

/-! ## Region 2: the perceptron over ten blocks of 5000 node rows -/

theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- An array read through point t's block of the result window, at y, is the array at the block's element y. -/
theorem read_blk2 (G : S50000x64.Idx → EReal) (t : Fin cfg2.N) (y : S5000x64.Idx) :
    ((cfg2.win 5).blk t).view.read (Elt Ideal) G y = G (((cfg2.win 5).blk t).view.emb y) := rfl

/-- What point t writes back is block t of the perceptron function of the arrays as the region finds them. -/
theorem flushed2 (c : Dev nD) (t : Fin cfg2.N) :
    (dat2 V c).flushed 5 t = ((cfg2.win 5).blk t).view.read (Elt Ideal)
      (postArr (V c main_v45 : S50000x128.Idx → EReal) (V c main_arg9 : S128x128.Idx → EReal)
        (fun j => (V c main_v46 : S1x128.Idx → EReal) (ix2 (0 : Fin 1) j))
        (V c main_arg11 : S64x128.Idx → EReal)
        (fun j => (V c main_v47 : S1x64.Idx → EReal) (ix2 (0 : Fin 1) j))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz,
    View.ld_unit_zero (S := S64x128) hz, View.ld_unit_zero (S := S1x64) hz]
  obtain ⟨e00, e01, e10, e11, e20, e21, e30, e31, e40, e41, e50, e51⟩ := idx2 t
  have ht : t.val < 10 := by
    have h : t.val < grid2.N := t.isLt
    rw [N_2] at h
    exact h
  refine funext fun (y : S5000x64.Idx) => ?_
  obtain ⟨p, q, rfl⟩ : ∃ (p : Fin 5000) (q : Fin 64), y = ix2 p q := ⟨y 0, y 1, eq_ix2 y⟩
  refine (Body.pay2_at (iblk2 V c 0 t) (iblk2 V c 1 t) (iblk2 V c 2 t) (iblk2 V c 3 t) (iblk2 V c 4 t) p q).trans ?_
  have hp : p.val < 5000 := p.isLt
  have hx : ∀ k : Fin 128, iblk2 V c 0 t (ix2 p k)
      = (V c main_v45 : S50000x128.Idx → EReal) (ix2 (⟨t.val * 5000 + p.val, by omega⟩ : Fin 50000) k) := by
    intro k
    show (V c main_v45 : S50000x128.Idx → EReal) (((cfg2.win 0).blk t).view.emb (ix2 p k)) = _
    refine congrArg (V c main_v45 : S50000x128.Idx → EReal) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have hw1 : ∀ j k : Fin 128, iblk2 V c 1 t (ix2 j k) = (V c main_arg9 : S128x128.Idx → EReal) (ix2 j k) := by
    intro j k
    show (V c main_arg9 : S128x128.Idx → EReal) (((cfg2.win 1).blk t).view.emb (ix2 j k)) = _
    refine congrArg (V c main_arg9 : S128x128.Idx → EReal) (funext fun a => Fin.ext ?_)
    match a with
    | ⟨0, _⟩ => show win2_1.index t (0 : Fin 2) * 128 + 1 * j.val = j.val; omega
    | ⟨1, _⟩ => show win2_1.index t (1 : Fin 2) * 128 + 1 * k.val = k.val; omega
  have hb2 : ∀ j : Fin 128, iblk2 V c 2 t (ix2 (0 : Fin 1) j) = (V c main_v46 : S1x128.Idx → EReal) (ix2 (0 : Fin 1) j) := by
    intro j
    show (V c main_v46 : S1x128.Idx → EReal) (((cfg2.win 2).blk t).view.emb (ix2 (0 : Fin 1) j)) = _
    refine congrArg (V c main_v46 : S1x128.Idx → EReal) (funext fun a => Fin.ext ?_)
    match a with
    | ⟨0, _⟩ => show win2_2.index t (0 : Fin 2) * 1 + 1 * 0 = 0; omega
    | ⟨1, _⟩ => show win2_2.index t (1 : Fin 2) * 128 + 1 * j.val = j.val; omega
  have hw3 : ∀ (j : Fin 64) (k : Fin 128), iblk2 V c 3 t (ix2 j k) = (V c main_arg11 : S64x128.Idx → EReal) (ix2 j k) := by
    intro j k
    show (V c main_arg11 : S64x128.Idx → EReal) (((cfg2.win 3).blk t).view.emb (ix2 j k)) = _
    refine congrArg (V c main_arg11 : S64x128.Idx → EReal) (funext fun a => Fin.ext ?_)
    match a with
    | ⟨0, _⟩ => show win2_3.index t (0 : Fin 2) * 64 + 1 * j.val = j.val; omega
    | ⟨1, _⟩ => show win2_3.index t (1 : Fin 2) * 128 + 1 * k.val = k.val; omega
  have hb4 : ∀ j : Fin 64, iblk2 V c 4 t (ix2 (0 : Fin 1) j) = (V c main_v47 : S1x64.Idx → EReal) (ix2 (0 : Fin 1) j) := by
    intro j
    show (V c main_v47 : S1x64.Idx → EReal) (((cfg2.win 4).blk t).view.emb (ix2 (0 : Fin 1) j)) = _
    refine congrArg (V c main_v47 : S1x64.Idx → EReal) (funext fun a => Fin.ext ?_)
    match a with
    | ⟨0, _⟩ => show win2_4.index t (0 : Fin 2) * 1 + 1 * 0 = 0; omega
    | ⟨1, _⟩ => show win2_4.index t (1 : Fin 2) * 64 + 1 * j.val = j.val; omega
  have hout : ((cfg2.win 5).blk t).view.emb (ix2 p q) = ix2 (⟨t.val * 5000 + p.val, by omega⟩ : Fin 50000) q := by
    refine funext fun a => Fin.ext ?_
    match a with
    | ⟨0, _⟩ => show win2_5.index t (0 : Fin 2) * 5000 + 1 * p.val = t.val * 5000 + p.val; omega
    | ⟨1, _⟩ => show win2_5.index t (1 : Fin 2) * 64 + 1 * q.val = q.val; omega
  rw [read_blk2, hout]
  simp only [hx, hw1, hb2, hw3, hb4]
  rfl

theorem mem_blk2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v48).slice (win2_5.rect t)).set ↔ _
  rw [View.set_slice_whole, Rect.mem_set_unit]
  exact Iff.rfl

theorem cover2 (i : S50000x64.Idx) :
    ∃ t : Fin cfg2.N, (cfg2.win 5).flush t = true ∧ i ∈ ((cfg2.win 5).blk t).view.set := by
  have h0 : (i 0).val < 50000 := (i 0).isLt
  have h1 : (i 1).val < 64 := (i 1).isLt
  have hN : (i 0).val / 5000 < cfg2.N := by
    show (i 0).val / 5000 < grid2.N
    rw [N_2]
    omega
  refine ⟨⟨(i 0).val / 5000, hN⟩, flush2_5 _, ?_⟩
  rw [mem_blk2]
  obtain ⟨-, -, -, -, -, -, -, -, -, -, e50, e51⟩ := idx2 ⟨(i 0).val / 5000, hN⟩
  have e50' : win2_5.index ⟨(i 0).val / 5000, hN⟩ (0 : Fin 2) = (i 0).val / 5000 := e50
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    omega
  | ⟨1, _⟩ =>
    show win2_5.index ⟨(i 0).val / 5000, hN⟩ (1 : Fin 2) * 64 ≤ (i 1).val
      ∧ (i 1).val < win2_5.index ⟨(i 0).val / 5000, hN⟩ (1 : Fin 2) * 64 + 64
    omega

/-- THE RESULT ARRAY of region 2: the perceptron function of the arrays as the region finds them. -/
theorem arr2 (c : Dev nD) :
    (dat2 V c).arrAt 5 cfg2.N
      = postArr (V c main_v45 : S50000x128.Idx → EReal) (V c main_arg9 : S128x128.Idx → EReal)
        (fun j => (V c main_v46 : S1x128.Idx → EReal) (ix2 (0 : Fin 1) j))
        (V c main_arg11 : S64x128.Idx → EReal)
        (fun j => (V c main_v47 : S1x64.Idx → EReal) (ix2 (0 : Fin 1) j)) :=
  (dat2 V c).arrAt_eq_of_cover 5 _ (fun t _ => flushed2 V c t) cover2

end Cert.Sage.Regions

end
-- ==== Proof.KernelHost.lean ====
/-
  What the host operations leave in the buffers the three launches read.

  Before the first launch the host computes the neighbourhood mean of the input node array (gather, two scatter-adds, a
  division: the SAME operations, in the same order, as the reference's, so the buffer holds the reference's own stage
  function agg of the two arguments) and reshapes the two bias vectors to one-row arrays; before the second launch it does
  the same with the first launch's result array and the second layer's biases; before the third it reshapes the
  perceptron's biases. No host operation and no launch writes an argument array, so each weight array is as launched.
  Each fact is read off the list of host operations by rewriting every operation's result at its own buffer.
  (W0 … W6 are the buffer contents at the seven boundaries between the host stretches and the launches; Vk reads Wk.)
-/
import proofs.«118840_j21311627723482_1_alg».proof.Proof.RefValue
import proofs.«118840_j21311627723482_1_alg».proof.Proof.KernelIdealFrameP
import Idealize.ShloMosaic.Lib.StableHlo.Run

set_option maxRecDepth 16384

noncomputable section

namespace Cert.Sage.Host

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.Sage

variable (m : (ℓ : Loc nD τ sig) → Buf (Elt Ideal) ℓ) (ρ : Dev nD → PrngReg)

/-! ## The argument arrays are as launched at every boundary -/

theorem u0_0 (c : Dev nD) : W1 m ρ c (Proc.devRef .tc main_arg0) = m ((c : Thread nD τ).loc main_arg0) := by
  show StableHlo.after hostOps0 (W0 m ρ c) (Proc.devRef .tc main_arg0) = _
  dsimp only [hostOps0]
  after_results

theorem u0_1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results

theorem u0_3 (c : Dev nD) : W1 m ρ c (Proc.devRef .tc main_arg3) = m ((c : Thread nD τ).loc main_arg3) := by
  show StableHlo.after hostOps0 (W0 m ρ c) (Proc.devRef .tc main_arg3) = _
  dsimp only [hostOps0]
  after_results

theorem u0_5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results

theorem u0_6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results

theorem u0_7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results

theorem u0_8 (c : Dev nD) : W1 m ρ c (Proc.devRef .tc main_arg8) = m ((c : Thread nD τ).loc main_arg8) := by
  show StableHlo.after hostOps0 (W0 m ρ c) (Proc.devRef .tc main_arg8) = _
  dsimp only [hostOps0]
  after_results

theorem u0_9 (c : Dev nD) : W1 m ρ c (Proc.devRef .tc main_arg9) = m ((c : Thread nD τ).loc main_arg9) := by
  show StableHlo.after hostOps0 (W0 m ρ c) (Proc.devRef .tc main_arg9) = _
  dsimp only [hostOps0]
  after_results

theorem u0_10 (c : Dev nD) : W1 m ρ c (Proc.devRef .tc main_arg10) = m ((c : Thread nD τ).loc main_arg10) := by
  show StableHlo.after hostOps0 (W0 m ρ c) (Proc.devRef .tc main_arg10) = _
  dsimp only [hostOps0]
  after_results

theorem u0_11 (c : Dev nD) : W1 m ρ c (Proc.devRef .tc main_arg11) = m ((c : Thread nD τ).loc main_arg11) := by
  show StableHlo.after hostOps0 (W0 m ρ c) (Proc.devRef .tc main_arg11) = _
  dsimp only [hostOps0]
  after_results

theorem u0_12 (c : Dev nD) : W1 m ρ c (Proc.devRef .tc main_arg12) = m ((c : Thread nD τ).loc main_arg12) := by
  show StableHlo.after hostOps0 (W0 m ρ c) (Proc.devRef .tc main_arg12) = _
  dsimp only [hostOps0]
  after_results

theorem w2_5 (c : Dev nD) : W2 m ρ c (Proc.devRef .tc main_arg5) = m ((c : Thread nD τ).loc main_arg5) :=
  (W2_of_ne m ρ c main_arg5 (by decide)).trans (u0_5 m ρ c)

theorem w2_6 (c : Dev nD) : W2 m ρ c (Proc.devRef .tc main_arg6) = m ((c : Thread nD τ).loc main_arg6) :=
  (W2_of_ne m ρ c main_arg6 (by decide)).trans (u0_6 m ρ c)

theorem w2_7 (c : Dev nD) : W2 m ρ c (Proc.devRef .tc main_arg7) = m ((c : Thread nD τ).loc main_arg7) :=
  (W2_of_ne m ρ c main_arg7 (by decide)).trans (u0_7 m ρ c)

theorem w2_8 (c : Dev nD) : W2 m ρ c (Proc.devRef .tc main_arg8) = m ((c : Thread nD τ).loc main_arg8) :=
  (W2_of_ne m ρ c main_arg8 (by decide)).trans (u0_8 m ρ c)

theorem w2_9 (c : Dev nD) : W2 m ρ c (Proc.devRef .tc main_arg9) = m ((c : Thread nD τ).loc main_arg9) :=
  (W2_of_ne m ρ c main_arg9 (by decide)).trans (u0_9 m ρ c)

theorem w2_10 (c : Dev nD) : W2 m ρ c (Proc.devRef .tc main_arg10) = m ((c : Thread nD τ).loc main_arg10) :=
  (W2_of_ne m ρ c main_arg10 (by decide)).trans (u0_10 m ρ c)

theorem w2_11 (c : Dev nD) : W2 m ρ c (Proc.devRef .tc main_arg11) = m ((c : Thread nD τ).loc main_arg11) :=
  (W2_of_ne m ρ c main_arg11 (by decide)).trans (u0_11 m ρ c)

theorem w2_12 (c : Dev nD) : W2 m ρ c (Proc.devRef .tc main_arg12) = m ((c : Thread nD τ).loc main_arg12) :=
  (W2_of_ne m ρ c main_arg12 (by decide)).trans (u0_12 m ρ c)

theorem u1_5 (c : Dev nD) : W3 m ρ c (Proc.devRef .tc main_arg5) = m ((c : Thread nD τ).loc main_arg5) := by
  show StableHlo.after hostOps1 (W2 m ρ c) (Proc.devRef .tc main_arg5) = _
  dsimp only [hostOps1]
  after_results
  exact w2_5 m ρ c

theorem u1_7 (c : Dev nD) : W3 m ρ c (Proc.devRef .tc main_arg7) = m ((c : Thread nD τ).loc main_arg7) := by
  show StableHlo.after hostOps1 (W2 m ρ c) (Proc.devRef .tc main_arg7) = _
  dsimp only [hostOps1]
  after_results
  exact w2_7 m ρ c

theorem u1_9 (c : Dev nD) : W3 m ρ c (Proc.devRef .tc main_arg9) = m ((c : Thread nD τ).loc main_arg9) := by
  show StableHlo.after hostOps1 (W2 m ρ c) (Proc.devRef .tc main_arg9) = _
  dsimp only [hostOps1]
  after_results
  exact w2_9 m ρ c

theorem u1_10 (c : Dev nD) : W3 m ρ c (Proc.devRef .tc main_arg10) = m ((c : Thread nD τ).loc main_arg10) := by
  show StableHlo.after hostOps1 (W2 m ρ c) (Proc.devRef .tc main_arg10) = _
  dsimp only [hostOps1]
  after_results
  exact w2_10 m ρ c

theorem u1_11 (c : Dev nD) : W3 m ρ c (Proc.devRef .tc main_arg11) = m ((c : Thread nD τ).loc main_arg11) := by
  show StableHlo.after hostOps1 (W2 m ρ c) (Proc.devRef .tc main_arg11) = _
  dsimp only [hostOps1]
  after_results
  exact w2_11 m ρ c

theorem u1_12 (c : Dev nD) : W3 m ρ c (Proc.devRef .tc main_arg12) = m ((c : Thread nD τ).loc main_arg12) := by
  show StableHlo.after hostOps1 (W2 m ρ c) (Proc.devRef .tc main_arg12) = _
  dsimp only [hostOps1]
  after_results
  exact w2_12 m ρ c

theorem w4_9 (c : Dev nD) : W4 m ρ c (Proc.devRef .tc main_arg9) = m ((c : Thread nD τ).loc main_arg9) :=
  (W4_of_ne m ρ c main_arg9 (by decide)).trans (u1_9 m ρ c)

theorem w4_10 (c : Dev nD) : W4 m ρ c (Proc.devRef .tc main_arg10) = m ((c : Thread nD τ).loc main_arg10) :=
  (W4_of_ne m ρ c main_arg10 (by decide)).trans (u1_10 m ρ c)

theorem w4_11 (c : Dev nD) : W4 m ρ c (Proc.devRef .tc main_arg11) = m ((c : Thread nD τ).loc main_arg11) :=
  (W4_of_ne m ρ c main_arg11 (by decide)).trans (u1_11 m ρ c)

theorem w4_12 (c : Dev nD) : W4 m ρ c (Proc.devRef .tc main_arg12) = m ((c : Thread nD τ).loc main_arg12) :=
  (W4_of_ne m ρ c main_arg12 (by decide)).trans (u1_12 m ρ c)

theorem u2_9 (c : Dev nD) : W5 m ρ c (Proc.devRef .tc main_arg9) = m ((c : Thread nD τ).loc main_arg9) := by
  show StableHlo.after hostOps2 (W4 m ρ c) (Proc.devRef .tc main_arg9) = _
  dsimp only [hostOps2]
  after_results
  exact w4_9 m ρ c

theorem u2_11 (c : Dev nD) : W5 m ρ c (Proc.devRef .tc main_arg11) = m ((c : Thread nD τ).loc main_arg11) := by
  show StableHlo.after hostOps2 (W4 m ρ c) (Proc.devRef .tc main_arg11) = _
  dsimp only [hostOps2]
  after_results
  exact w4_11 m ρ c

/-! ## Before the first launch -/

theorem v1_arg0 (c : Dev nD) : (V1 m ρ c main_arg0 : S50000x128.Idx → EReal) = m ((c : Thread nD τ).loc main_arg0) := u0_0 m ρ c
theorem v1_arg1 (c : Dev nD) : (V1 m ρ c main_arg1 : S128x128.Idx → EReal) = m ((c : Thread nD τ).loc main_arg1) := u0_1 m ρ c
theorem v1_arg3 (c : Dev nD) : (V1 m ρ c main_arg3 : S128x128.Idx → EReal) = m ((c : Thread nD τ).loc main_arg3) := u0_3 m ρ c

/-- The second operand of the first launch holds the neighbourhood mean of the input node array. -/
theorem v1_agg (c : Dev nD) :
    (V1 m ρ c main_v21 : S50000x128.Idx → EReal) = Ref.agg (m ((c : Thread nD τ).loc main_arg0)) (m ((c : Thread nD τ).loc main_arg13)) := by
  show StableHlo.after hostOps0 (W0 m ρ c) (Proc.devRef .tc main_v21) = _
  dsimp only [hostOps0]
  after_results_simp
  rfl

theorem v1_bias2 (c : Dev nD) (j : Fin 128) :
    (V1 m ρ c main_v22 : S1x128.Idx → EReal) (ix2 (0 : Fin 1) j) = (m ((c : Thread nD τ).loc main_arg2) : S128.Idx → EReal) (ix1 j) := by
  have e : (V1 m ρ c main_v22 : S1x128.Idx → EReal)
      = shapeCast S1x128 (m ((c : Thread nD τ).loc main_arg2) : S128.Idx → EReal) shapeCasts_S128_S1x128 := by
    show StableHlo.after hostOps0 (W0 m ρ c) (Proc.devRef .tc main_v22) = _
    dsimp only [hostOps0]
    after_results
    try rfl
  rw [e, shapeCast_a_1a_apply]

theorem v1_bias4 (c : Dev nD) (j : Fin 128) :
    (V1 m ρ c main_v23 : S1x128.Idx → EReal) (ix2 (0 : Fin 1) j) = (m ((c : Thread nD τ).loc main_arg4) : S128.Idx → EReal) (ix1 j) := by
  have e : (V1 m ρ c main_v23 : S1x128.Idx → EReal)
      = shapeCast S1x128 (m ((c : Thread nD τ).loc main_arg4) : S128.Idx → EReal) shapeCasts_S128_S1x128 := by
    show StableHlo.after hostOps0 (W0 m ρ c) (Proc.devRef .tc main_v23) = _
    dsimp only [hostOps0]
    after_results
    try rfl
  rw [e, shapeCast_a_1a_apply]

/-! ## Before the second launch -/

/-- The first launch's result array is still there. -/
theorem v3_x (c : Dev nD) : (V3 m ρ c main_v24 : S50000x128.Idx → EReal) = W2 m ρ c (Proc.devRef .tc main_v24) := by
  show StableHlo.after hostOps1 (W2 m ρ c) (Proc.devRef .tc main_v24) = _
  dsimp only [hostOps1]
  after_results

theorem v3_arg5 (c : Dev nD) : (V3 m ρ c main_arg5 : S128x128.Idx → EReal) = m ((c : Thread nD τ).loc main_arg5) := u1_5 m ρ c
theorem v3_arg7 (c : Dev nD) : (V3 m ρ c main_arg7 : S128x128.Idx → EReal) = m ((c : Thread nD τ).loc main_arg7) := u1_7 m ρ c

/-- The edge list's two rows, sliced and flattened before the first launch, are still in their buffers. -/
theorem w2_src (c : Dev nD) : W2 m ρ c (Proc.devRef .tc main_v1) = W1 m ρ c (Proc.devRef .tc main_v1) :=
  W2_of_ne m ρ c main_v1 (by decide)
theorem w2_dst (c : Dev nD) : W2 m ρ c (Proc.devRef .tc main_v3) = W1 m ρ c (Proc.devRef .tc main_v3) :=
  W2_of_ne m ρ c main_v3 (by decide)

/-- The second operand of the second launch holds the neighbourhood mean of the first launch's result array. -/
theorem v3_agg (c : Dev nD) :
    (V3 m ρ c main_v42 : S50000x128.Idx → EReal)
      = Ref.agg (W2 m ρ c (Proc.devRef .tc main_v24)) (m ((c : Thread nD τ).loc main_arg13)) := by
  show StableHlo.after hostOps1 (W2 m ρ c) (Proc.devRef .tc main_v42) = _
  dsimp only [hostOps1]
  after_results_simp
  rw [w2_src m ρ c, w2_dst m ρ c]
  dsimp only [W1, hostOps0]
  after_results_simp
  rfl

theorem v3_bias6 (c : Dev nD) (j : Fin 128) :
    (V3 m ρ c main_v43 : S1x128.Idx → EReal) (ix2 (0 : Fin 1) j) = (m ((c : Thread nD τ).loc main_arg6) : S128.Idx → EReal) (ix1 j) := by
  have e : (V3 m ρ c main_v43 : S1x128.Idx → EReal)
      = shapeCast S1x128 (m ((c : Thread nD τ).loc main_arg6) : S128.Idx → EReal) shapeCasts_S128_S1x128 := by
    show StableHlo.after hostOps1 (W2 m ρ c) (Proc.devRef .tc main_v43) = _
    dsimp only [hostOps1]
    after_results
    rw [w2_6 m ρ c]
    rfl
  rw [e, shapeCast_a_1a_apply]

theorem v3_bias8 (c : Dev nD) (j : Fin 128) :
    (V3 m ρ c main_v44 : S1x128.Idx → EReal) (ix2 (0 : Fin 1) j) = (m ((c : Thread nD τ).loc main_arg8) : S128.Idx → EReal) (ix1 j) := by
  have e : (V3 m ρ c main_v44 : S1x128.Idx → EReal)
      = shapeCast S1x128 (m ((c : Thread nD τ).loc main_arg8) : S128.Idx → EReal) shapeCasts_S128_S1x128 := by
    show StableHlo.after hostOps1 (W2 m ρ c) (Proc.devRef .tc main_v44) = _
    dsimp only [hostOps1]
    after_results
    rw [w2_8 m ρ c]
    rfl
  rw [e, shapeCast_a_1a_apply]

/-! ## Before the third launch -/

/-- The second launch's result array is still there. -/
theorem v5_x (c : Dev nD) : (V5 m ρ c main_v45 : S50000x128.Idx → EReal) = W4 m ρ c (Proc.devRef .tc main_v45) := by
  show StableHlo.after hostOps2 (W4 m ρ c) (Proc.devRef .tc main_v45) = _
  dsimp only [hostOps2]
  after_results

theorem v5_arg9 (c : Dev nD) : (V5 m ρ c main_arg9 : S128x128.Idx → EReal) = m ((c : Thread nD τ).loc main_arg9) := u2_9 m ρ c
theorem v5_arg11 (c : Dev nD) : (V5 m ρ c main_arg11 : S64x128.Idx → EReal) = m ((c : Thread nD τ).loc main_arg11) := u2_11 m ρ c

theorem v5_bias10 (c : Dev nD) (j : Fin 128) :
    (V5 m ρ c main_v46 : S1x128.Idx → EReal) (ix2 (0 : Fin 1) j) = (m ((c : Thread nD τ).loc main_arg10) : S128.Idx → EReal) (ix1 j) := by
  have e : (V5 m ρ c main_v46 : S1x128.Idx → EReal)
      = shapeCast S1x128 (m ((c : Thread nD τ).loc main_arg10) : S128.Idx → EReal) shapeCasts_S128_S1x128 := by
    show StableHlo.after hostOps2 (W4 m ρ c) (Proc.devRef .tc main_v46) = _
    dsimp only [hostOps2]
    after_results
    rw [w4_10 m ρ c]
    rfl
  rw [e, shapeCast_a_1a_apply]

theorem v5_bias12 (c : Dev nD) (j : Fin 64) :
    (V5 m ρ c main_v47 : S1x64.Idx → EReal) (ix2 (0 : Fin 1) j) = (m ((c : Thread nD τ).loc main_arg12) : S64.Idx → EReal) (ix1 j) := by
  have e : (V5 m ρ c main_v47 : S1x64.Idx → EReal)
      = shapeCast S1x64 (m ((c : Thread nD τ).loc main_arg12) : S64.Idx → EReal) shapeCasts_S64_S1x64 := by
    show StableHlo.after hostOps2 (W4 m ρ c) (Proc.devRef .tc main_v47) = _
    dsimp only [hostOps2]
    after_results
    rw [w4_12 m ρ c]
    rfl
  rw [e, shapeCast_a_1a_apply]

end Cert.Sage.Host

end
-- ==== Proof.KernelRun.lean ====
/-
  The idealized kernel's run with its result array NAMED: the function sage of the argument arrays.

  The program is three launches among three stretches of host operations. Its run leaves every buffer at the contents W6
  (the seventh boundary); at the result buffer that is what the third launch's write-backs leave (KernelRegions: the
  perceptron function of the arrays the launch finds), the array it finds being what the second launch left (the layer
  function of what IT finds, the mean among them), and so back to the launch memory (KernelHost). The argument arrays end as
  launched.
-/
import proofs.«118840_j21311627723482_1_alg».proof.Proof.KernelRegions
import proofs.«118840_j21311627723482_1_alg».proof.Proof.KernelHost

set_option maxRecDepth 16384

noncomputable section

namespace Cert.Sage.Run

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP Cert.Sage

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution terminates, nothing faulting, with every unscoped buffer of every core at the last
    boundary's contents W6. -/
theorem run_mem : θ_run defs (onTc (τ := τ) (main (F := Ideal))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- A layer depends on its bias vectors only through their entries. -/
theorem layerArr_congr {n : Nat} (x a : Mat n 128) (Wl Wr : Mat 128 128) {bl bl' br br' : Fin 128 → EReal}
    (h1 : ∀ j, bl j = bl' j) (h2 : ∀ j, br j = br' j) : layerArr x a Wl Wr bl br = layerArr x a Wl Wr bl' br' := by
  rw [funext h1, funext h2]

/-- So does the perceptron. -/
theorem postArr_congr {n : Nat} (x : Mat n 128) (W1 : Mat 128 128) (W2 : Mat 64 128) {b1 b1' : Fin 128 → EReal}
    {b2 b2' : Fin 64 → EReal} (h1 : ∀ j, b1 j = b1' j) (h2 : ∀ j, b2 j = b2' j) :
    postArr x W1 b1 W2 b2 = postArr x W1 b1' W2 b2' := by
  rw [funext h1, funext h2]

/-! ## The boundary contents at the three result arrays -/

/-- After the first launch its result array holds the first layer of the arguments. -/
theorem first (c : Dev nD) :
    (W2 m ρ c (Proc.devRef .tc main_v24) : S50000x128.Idx → EReal) = (layerArr (m ((c : Thread nD τ).loc main_arg0)) (Ref.agg (m ((c : Thread nD τ).loc main_arg0)) (m ((c : Thread nD τ).loc main_arg13))) (m ((c : Thread nD τ).loc main_arg1)) (m ((c : Thread nD τ).loc main_arg3)) (fun j => (m ((c : Thread nD τ).loc main_arg2) : S128.Idx → EReal) (ix1 j)) (fun j => (m ((c : Thread nD τ).loc main_arg4) : S128.Idx → EReal) (ix1 j))) := by
  refine (W2_arr m ρ c 6).trans ((Regions.arr0 (V1 m ρ) c).trans ?_)
  rw [Host.v1_arg0, Host.v1_agg, Host.v1_arg1, Host.v1_arg3]
  exact layerArr_congr _ _ _ _ (Host.v1_bias2 m ρ c) (Host.v1_bias4 m ρ c)

/-- After the second launch its result array holds the second layer of the first. -/
theorem second (c : Dev nD) :
    (W4 m ρ c (Proc.devRef .tc main_v45) : S50000x128.Idx → EReal) = (layerArr (layerArr (m ((c : Thread nD τ).loc main_arg0)) (Ref.agg (m ((c : Thread nD τ).loc main_arg0)) (m ((c : Thread nD τ).loc main_arg13))) (m ((c : Thread nD τ).loc main_arg1)) (m ((c : Thread nD τ).loc main_arg3)) (fun j => (m ((c : Thread nD τ).loc main_arg2) : S128.Idx → EReal) (ix1 j)) (fun j => (m ((c : Thread nD τ).loc main_arg4) : S128.Idx → EReal) (ix1 j))) (Ref.agg (layerArr (m ((c : Thread nD τ).loc main_arg0)) (Ref.agg (m ((c : Thread nD τ).loc main_arg0)) (m ((c : Thread nD τ).loc main_arg13))) (m ((c : Thread nD τ).loc main_arg1)) (m ((c : Thread nD τ).loc main_arg3)) (fun j => (m ((c : Thread nD τ).loc main_arg2) : S128.Idx → EReal) (ix1 j)) (fun j => (m ((c : Thread nD τ).loc main_arg4) : S128.Idx → EReal) (ix1 j))) (m ((c : Thread nD τ).loc main_arg13))) (m ((c : Thread nD τ).loc main_arg5)) (m ((c : Thread nD τ).loc main_arg7)) (fun j => (m ((c : Thread nD τ).loc main_arg6) : S128.Idx → EReal) (ix1 j)) (fun j => (m ((c : Thread nD τ).loc main_arg8) : S128.Idx → EReal) (ix1 j))) := by
  refine (W4_arr m ρ c 6).trans ((Regions.arr1 (V3 m ρ) c).trans ?_)
  rw [Host.v3_x, Host.v3_agg, Host.v3_arg5, Host.v3_arg7, first]
  exact layerArr_congr _ _ _ _ (Host.v3_bias6 m ρ c) (Host.v3_bias8 m ρ c)

/-- After the third launch the result buffer holds the perceptron of the second layer. -/
theorem third (c : Dev nD) :
    (W6 m ρ c (Proc.devRef .tc main_v48) : S50000x64.Idx → EReal) = (postArr (layerArr (layerArr (m ((c : Thread nD τ).loc main_arg0)) (Ref.agg (m ((c : Thread nD τ).loc main_arg0)) (m ((c : Thread nD τ).loc main_arg13))) (m ((c : Thread nD τ).loc main_arg1)) (m ((c : Thread nD τ).loc main_arg3)) (fun j => (m ((c : Thread nD τ).loc main_arg2) : S128.Idx → EReal) (ix1 j)) (fun j => (m ((c : Thread nD τ).loc main_arg4) : S128.Idx → EReal) (ix1 j))) (Ref.agg (layerArr (m ((c : Thread nD τ).loc main_arg0)) (Ref.agg (m ((c : Thread nD τ).loc main_arg0)) (m ((c : Thread nD τ).loc main_arg13))) (m ((c : Thread nD τ).loc main_arg1)) (m ((c : Thread nD τ).loc main_arg3)) (fun j => (m ((c : Thread nD τ).loc main_arg2) : S128.Idx → EReal) (ix1 j)) (fun j => (m ((c : Thread nD τ).loc main_arg4) : S128.Idx → EReal) (ix1 j))) (m ((c : Thread nD τ).loc main_arg13))) (m ((c : Thread nD τ).loc main_arg5)) (m ((c : Thread nD τ).loc main_arg7)) (fun j => (m ((c : Thread nD τ).loc main_arg6) : S128.Idx → EReal) (ix1 j)) (fun j => (m ((c : Thread nD τ).loc main_arg8) : S128.Idx → EReal) (ix1 j))) (m ((c : Thread nD τ).loc main_arg9)) (fun j => (m ((c : Thread nD τ).loc main_arg10) : S128.Idx → EReal) (ix1 j)) (m ((c : Thread nD τ).loc main_arg11)) (fun j => (m ((c : Thread nD τ).loc main_arg12) : S64.Idx → EReal) (ix1 j))) := by
  refine (W6_arr m ρ c 5).trans ((Regions.arr2 (V5 m ρ) c).trans ?_)
  rw [Host.v5_x, Host.v5_arg9, Host.v5_arg11, second]
  exact postArr_congr _ _ _ (Host.v5_bias10 m ρ c) (Host.v5_bias12 m ρ c)

/-- That is the function sage of the arguments (its definition, unfolded). -/
theorem sage_eq (c : Dev nD) : Ref.sage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = (postArr (layerArr (layerArr (m ((c : Thread nD τ).loc main_arg0)) (Ref.agg (m ((c : Thread nD τ).loc main_arg0)) (m ((c : Thread nD τ).loc main_arg13))) (m ((c : Thread nD τ).loc main_arg1)) (m ((c : Thread nD τ).loc main_arg3)) (fun j => (m ((c : Thread nD τ).loc main_arg2) : S128.Idx → EReal) (ix1 j)) (fun j => (m ((c : Thread nD τ).loc main_arg4) : S128.Idx → EReal) (ix1 j))) (Ref.agg (layerArr (m ((c : Thread nD τ).loc main_arg0)) (Ref.agg (m ((c : Thread nD τ).loc main_arg0)) (m ((c : Thread nD τ).loc main_arg13))) (m ((c : Thread nD τ).loc main_arg1)) (m ((c : Thread nD τ).loc main_arg3)) (fun j => (m ((c : Thread nD τ).loc main_arg2) : S128.Idx → EReal) (ix1 j)) (fun j => (m ((c : Thread nD τ).loc main_arg4) : S128.Idx → EReal) (ix1 j))) (m ((c : Thread nD τ).loc main_arg13))) (m ((c : Thread nD τ).loc main_arg5)) (m ((c : Thread nD τ).loc main_arg7)) (fun j => (m ((c : Thread nD τ).loc main_arg6) : S128.Idx → EReal) (ix1 j)) (fun j => (m ((c : Thread nD τ).loc main_arg8) : S128.Idx → EReal) (ix1 j))) (m ((c : Thread nD τ).loc main_arg9)) (fun j => (m ((c : Thread nD τ).loc main_arg10) : S128.Idx → EReal) (ix1 j)) (m ((c : Thread nD τ).loc main_arg11)) (fun j => (m ((c : Thread nD τ).loc main_arg12) : S64.Idx → EReal) (ix1 j))) := rfl

/-- THE RUN: every weakly fair execution terminates, nothing faulting, with the result array at sage of the arguments
    and the arguments unchanged. -/
theorem run : θ_run defs (onTc (τ := τ) (main (F := Ideal))) ⟨m, fun _ => 0, ρ⟩ (fun r => ∀ c : Dev nD,
      r.2.mem ((c.tc : Thread nD τ).loc main_v48) = Ref.sage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨(h c _ (mem_uc main_v48 (by decide))).trans ((third m ρ c).trans (sage_eq m c).symm),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)
    (run_mem m ρ)

end Cert.Sage.Run

end
-- ==== Proof.lean ====
/-
  The certificate of the GraphSAGE forward pass (two SAGE layers and a two-layer perceptron): the kernel program, its
  idealization and the idealized reference.

  At the ideal instance both programs compute one function of the fourteen arguments, sage (RefValue): each layer is, row by
  row, the two linear maps of a node's feature row and of its neighbourhood-mean row, scaled to unit length (the length
  floored at 1e-12) and cut at zero; the perceptron follows. The kernel computes each layer and the perceptron in a launch
  over ten blocks of 5000 rows (KernelBody: the body's arithmetic at an element; KernelRegions: the ten blocks tile the
  result array; KernelHost: what the host operations between the launches leave for them; KernelRun: the run with the
  result named), the reference with whole-array host operations (RefValue, over the generated reads). The neighbourhood mean
  is the same list of host operations in both programs and is never opened. No law beyond reading both sides at an element
  is used (the sums are taken in the same order), so the precondition that the inputs are finite is not needed.
  The three frames are the generated ones (the reference's: its generated run with the result dropped); no operation was
  rewritten by the idealization, so there is nothing to preserve.
-/
import proofs.«118840_j21311627723482_1_alg».proof.Defs
import proofs.«118840_j21311627723482_1_alg».proof.Proof.Gen.Kernel
import proofs.«118840_j21311627723482_1_alg».proof.Proof.Gen.Kernel.Skeleton
import proofs.«118840_j21311627723482_1_alg».proof.Proof.KernelLaunchP
import proofs.«118840_j21311627723482_1_alg».proof.Proof.Gen.Kernel.Points
import proofs.«118840_j21311627723482_1_alg».proof.Proof.KernelFrameP
import proofs.«118840_j21311627723482_1_alg».proof.Proof.Gen.KernelIdeal
import proofs.«118840_j21311627723482_1_alg».proof.Proof.Gen.KernelIdeal.Skeleton
import proofs.«118840_j21311627723482_1_alg».proof.Proof.KernelIdealLaunchP
import proofs.«118840_j21311627723482_1_alg».proof.Proof.Gen.KernelIdeal.Points
import proofs.«118840_j21311627723482_1_alg».proof.Proof.KernelIdealFrameP
import proofs.«118840_j21311627723482_1_alg».proof.Proof.Gen.ReferenceIdeal
import proofs.«118840_j21311627723482_1_alg».proof.Proof.Gen.ReferenceIdeal.Run
import proofs.«118840_j21311627723482_1_alg».proof.Proof.Gen.ReferenceIdeal.Read
import proofs.«118840_j21311627723482_1_alg».proof.Proof.Gen.Pre_finite_inputs
import proofs.«118840_j21311627723482_1_alg».proof.Proof.RefValue
import proofs.«118840_j21311627723482_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result array at sage of arguments that agree. -/
theorem algebraic : Cert.algebraic_KernelIdeal_ReferenceIdeal := by
  intro m ρ m' ρ' _ hagree
  refine ⟨fun c => Cert.Sage.Ref.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), Cert.Sage.Run.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v90_eq, Cert.Sage.Ref.ref_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
